-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel

variable [Facts]

def fn {F : FTy → Type} [FloatOps F] (main_arg0 : FVec F S4x4096x1024 .f32) (main_arg1 : FVec F S4x4096x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  main_v8
-- ==== Kernel.lean ====
abbrev S4x4096x1024 : Shape := ⟨3, ![4, 4096, 1024]⟩
abbrev S1x1024x1024 : Shape := ⟨3, ![1, 1024, 1024]⟩
abbrev S1x2048x1024 : Shape := ⟨3, ![1, 2048, 1024]⟩
abbrev S1024x1 : Shape := ⟨2, ![1024, 1]⟩
abbrev S1024x1024 : Shape := ⟨2, ![1024, 1024]⟩
abbrev S2048x1024 : Shape := ⟨2, ![2048, 1024]⟩
abbrev S1024x2048 : Shape := ⟨2, ![1024, 2048]⟩
abbrev S1024 : Shape := ⟨1, ![1024]⟩

abbrev nBuf : Space → Nat
  | .hbm => 3
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1, .f32⟩
  | .local _ .vmem, ⟨7, _⟩ => ⟨S1024x1, .f32⟩
  | .local _ .vmem, ⟨8, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v39 : BitVec 1 := Scalar.cmpi .eq arg2 c1_i32
  let v40 : BitVec 32 := Scalar.extui v39
  let c0_i32_21 : BitVec 32 := 0#32
  let v41 : BitVec 1 := Scalar.cmpi .ne v40 c0_i32_21
  v41

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x1024 : S1024x1.Broadcasts S1024x1024
  shapeCasts_S1024x1024_S1x1024x1024 : S1024x1024.ShapeCasts S1x1024x1024
  dot_S1024x1024_S2048x1024_S1024x2048_1_1_0_0_n_n_wf : DotDims.WF S1024x1024 S2048x1024 S1024x2048 [1] [1] [0] [0] [] []
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S4x4096x1024.size a
  hwx0_1 : ∀ i : grid0.Coords, EltTy.bits .f32 = 32 ∨ (Rect.block (s := S4x4096x1024) S1x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x4096x1024.size a
  hwx0_2 : ∀ i : grid0.Coords, EltTy.bits .f32 = 32 ∨ (Rect.block (s := S4x4096x1024) S1x1024x1024.size (cc0_transform_2 i) (hinb0_2 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S4x4096x4096 : Shape := ⟨3, ![4, 4096, 4096]⟩
abbrev S_ : Shape := ⟨0, ![]⟩
abbrev S4x4096 : Shape := ⟨2, ![4, 4096]⟩
abbrev S4x1x4096 : Shape := ⟨3, ![4, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x4096, .f32⟩
  | .hbm, ⟨3, _⟩ => ⟨S_, .f32⟩
  | .hbm, ⟨4, _⟩ => ⟨S4x4096, .f32⟩
  | .hbm, ⟨5, _⟩ => ⟨S_, .f32⟩
  | .hbm, ⟨6, _⟩ => ⟨S4x4096, .f32⟩
  | .hbm, ⟨7, _⟩ => ⟨S4x4096, .f32⟩
  | .hbm, ⟨8, _⟩ => ⟨S4x1x4096, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096, .f32⟩
  | .hbm, ⟨14, _⟩ => ⟨S4x1x4096, .f32⟩
  | .hbm, ⟨15, _⟩ => ⟨S4x4096x4096, .f32⟩
  | .hbm, ⟨16, _⟩ => ⟨S4x4096x4096, .f32⟩
  | .hbm, ⟨17, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S4x4096x4096_S4x4096_d1 : S4x4096x4096.ReducesTo [1] S4x4096
  h_S_ : 0 < S_.numel
  bcast_S_S4x4096 : S_.BroadcastsInDim S4x4096 (![] : Fin 0 → Fin S4x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_1_1_2_2_0_0_wf : DotDims.WF S4x4096x4096 S4x4096x1024 S4x4096x1024 [1] [1] [2] [2] [0] [0]

variable [Facts₀]

def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_1_1_2_2_0_0 : DotDims S4x4096x4096 S4x4096x1024 S4x4096x1024 where
  lhsContracting := [1]
  rhsContracting := [1]
  lhsNonContracting := [2]
  rhsNonContracting := [2]
  lhsBatch := [0]
  rhsBatch := [0]
  wf := dot_S4x4096x4096_S4x4096x1024_S4x4096x1024_1_1_2_2_0_0_wf

class Facts : Prop extends Facts₀ where

variable [Facts]
-- ==== Proof.CasePieces.lean ====
/-
  What each of the body's two control cases leaves in the three carried scratch buffers and in the output block, as
  pure terms of the blocks the case loads.

  At a first key block (case A) the body resets the running maximum to -∞ and the two running sums to 0, then updates
  them with the block; at the second key block (case B) it updates what the first left and writes the quotient of
  the accumulated values by the accumulated weight into the output block. Each buffer ends with one store that
  covers it, so its contents are that store's value; the values the case reads back from its own earlier stores are
  those stores' values.
-/
import proofs.«100083_j72962904424712_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First key block: the running maximum becomes the maximum of -∞ and the block's row maxima. -/
theorem max_first (c : Dev nD) (i : grid0.Coords) (a3 : Memref sig .tc .vmem S1x1024x1024 .f32) (h3 : a3.IsWhole) (a4 : Memref sig .tc .vmem S1x2048x1024 .f32) (h4 : a4.IsWhole) (a5 : Memref sig .tc .vmem S1x1024x1024 .f32) (h5 : a5.IsWhole) (a6 : Memref sig .tc .vmem S1024x1 .f32) (h6 : a6.IsWhole) (a7 : Memref sig .tc .vmem S1024x1 .f32) (h7 : a7.IsWhole) (a8 : Memref sig .tc .vmem S1024x1024 .f32) (h8 : a8.IsWhole) (hc0 : cond0_0 i) (hc1 : ¬cond0_1 i) (x0 : Vec F S1x1024x1024 .f32) (x1 : Vec F S1x2048x1024 .f32) :
    sout0_A_0 c i a3 h3 a4 h4 a5 h5 a6 h6 a7 h7 a8 h8 hc0 hc1 x0 x1 = k0_pay2 (k0_pay9 x0 x1 (k0_pay4 (F := F))) := by
  unfold sout0_A_0
  rw [View.read_writes_eq_canon _ _ _ (scover0_A_0 c i a3 h3 a4 h4 a5 h5 a6 h6 a7 h7 a8 h8 hc0 hc1 x0 x1)]
  unfold kernelRun0_A
  dsimp only
  sl_unfold_words
  rw [View.canon_cons_unit_zero (S := S1024x1) hz2]
  simp only [View.readAt_eq_ld, h3.read_unread, h4.read_unread, h5.read_unread, h6.read_unread, h7.read_unread, h8.read_unread, View.ld_unit_zero (S := S1x1024x1024) hz3, View.ld_unit_zero (S := S1x2048x1024) hz3, View.ld_unit_zero (S := S1024x1) hz2, View.ld_unit_zero (S := S1024x1024) hz2, View.readCov_unit_zero (S := S1024x1) _ hz2, View.readCov_unit_zero (S := S1024x1024) _ hz2]

/-- First key block: the running weight becomes the rescaled zero plus the block's row sums of exponentials. -/
theorem weight_first (c : Dev nD) (i : grid0.Coords) (a3 : Memref sig .tc .vmem S1x1024x1024 .f32) (h3 : a3.IsWhole) (a4 : Memref sig .tc .vmem S1x2048x1024 .f32) (h4 : a4.IsWhole) (a5 : Memref sig .tc .vmem S1x1024x1024 .f32) (h5 : a5.IsWhole) (a6 : Memref sig .tc .vmem S1024x1 .f32) (h6 : a6.IsWhole) (a7 : Memref sig .tc .vmem S1024x1 .f32) (h7 : a7.IsWhole) (a8 : Memref sig .tc .vmem S1024x1024 .f32) (h8 : a8.IsWhole) (hc0 : cond0_0 i) (hc1 : ¬cond0_1 i) (x0 : Vec F S1x1024x1024 .f32) (x1 : Vec F S1x2048x1024 .f32) :
    sout0_A_1 c i a3 h3 a4 h4 a5 h5 a6 h6 a7 h7 a8 h8 hc0 hc1 x0 x1 = k0_pay12 x0 x1 (k0_pay4 (F := F)) (k0_pay5 (F := F)) := by
  unfold sout0_A_1
  rw [View.read_writes_eq_canon _ _ _ (scover0_A_1 c i a3 h3 a4 h4 a5 h5 a6 h6 a7 h7 a8 h8 hc0 hc1 x0 x1)]
  unfold kernelRun0_A
  dsimp only
  sl_unfold_words
  rw [View.canon_cons_unit_zero (S := S1024x1) hz2]
  simp only [View.readAt_eq_ld, h3.read_unread, h4.read_unread, h5.read_unread, h6.read_unread, h7.read_unread, h8.read_unread, View.ld_unit_zero (S := S1x1024x1024) hz3, View.ld_unit_zero (S := S1x2048x1024) hz3, View.ld_unit_zero (S := S1024x1) hz2, View.ld_unit_zero (S := S1024x1024) hz2, View.readCov_unit_zero (S := S1024x1) _ hz2, View.readCov_unit_zero (S := S1024x1024) _ hz2]

/-- First key block: the accumulated values become the rescaled zero plus the block's weighted value rows. -/
theorem values_first (c : Dev nD) (i : grid0.Coords) (a3 : Memref sig .tc .vmem S1x1024x1024 .f32) (h3 : a3.IsWhole) (a4 : Memref sig .tc .vmem S1x2048x1024 .f32) (h4 : a4.IsWhole) (a5 : Memref sig .tc .vmem S1x1024x1024 .f32) (h5 : a5.IsWhole) (a6 : Memref sig .tc .vmem S1024x1 .f32) (h6 : a6.IsWhole) (a7 : Memref sig .tc .vmem S1024x1 .f32) (h7 : a7.IsWhole) (a8 : Memref sig .tc .vmem S1024x1024 .f32) (h8 : a8.IsWhole) (hc0 : cond0_0 i) (hc1 : ¬cond0_1 i) (x0 : Vec F S1x1024x1024 .f32) (x1 : Vec F S1x2048x1024 .f32) :
    sout0_A_2 c i a3 h3 a4 h4 a5 h5 a6 h6 a7 h7 a8 h8 hc0 hc1 x0 x1 = k0_pay1 (k0_pay13 x0 x1 (k0_pay4 (F := F)) (k0_pay6 (F := F))) := by
  unfold sout0_A_2
  rw [View.read_writes_eq_canon _ _ _ (scover0_A_2 c i a3 h3 a4 h4 a5 h5 a6 h6 a7 h7 a8 h8 hc0 hc1 x0 x1)]
  unfold kernelRun0_A
  dsimp only
  sl_unfold_words
  rw [View.canon_cons_unit_zero (S := S1024x1024) hz2]
  simp only [View.readAt_eq_ld, h3.read_unread, h4.read_unread, h5.read_unread, h6.read_unread, h7.read_unread, h8.read_unread, View.ld_unit_zero (S := S1x1024x1024) hz3, View.ld_unit_zero (S := S1x2048x1024) hz3, View.ld_unit_zero (S := S1024x1) hz2, View.ld_unit_zero (S := S1024x1024) hz2, View.readCov_unit_zero (S := S1024x1) _ hz2, View.readCov_unit_zero (S := S1024x1024) _ hz2]

/-- Second key block: the running maximum is updated from what the first block left. -/
theorem max_next (c : Dev nD) (i : grid0.Coords) (a3 : Memref sig .tc .vmem S1x1024x1024 .f32) (h3 : a3.IsWhole) (a4 : Memref sig .tc .vmem S1x2048x1024 .f32) (h4 : a4.IsWhole) (a5 : Memref sig .tc .vmem S1x1024x1024 .f32) (h5 : a5.IsWhole) (a6 : Memref sig .tc .vmem S1024x1 .f32) (h6 : a6.IsWhole) (a7 : Memref sig .tc .vmem S1024x1 .f32) (h7 : a7.IsWhole) (a8 : Memref sig .tc .vmem S1024x1024 .f32) (h8 : a8.IsWhole) (hc0 : ¬cond0_0 i) (hc1 : cond0_1 i) (x0 : Vec F S1x1024x1024 .f32) (x1 : Vec F S1x2048x1024 .f32) (xs0 : Vec F S1024x1 .f32) (xs1 : Vec F S1024x1 .f32) (xs2 : Vec F S1024x1024 .f32) :
    sout0_B_0 c i a3 h3 a4 h4 a5 h5 a6 h6 a7 h7 a8 h8 hc0 hc1 x0 x1 xs0 xs1 xs2 = k0_pay2 (k0_pay9 x0 x1 xs0) := by
  unfold sout0_B_0
  rw [View.read_writes_eq_canon _ _ _ (scover0_B_0 c i a3 h3 a4 h4 a5 h5 a6 h6 a7 h7 a8 h8 hc0 hc1 x0 x1 xs0 xs1 xs2)]
  unfold kernelRun0_B
  dsimp only
  sl_unfold_words
  rw [View.canon_unit_zero hz2]
  simp only [View.readAt_eq_ld, h3.read_unread, h4.read_unread, h5.read_unread, h6.read_unread, h7.read_unread, h8.read_unread, View.ld_unit_zero (S := S1x1024x1024) hz3, View.ld_unit_zero (S := S1x2048x1024) hz3, View.ld_unit_zero (S := S1024x1) hz2, View.ld_unit_zero (S := S1024x1024) hz2, View.readCov_unit_zero (S := S1024x1) _ hz2, View.readCov_unit_zero (S := S1024x1024) _ hz2]

/-- Second key block: the running weight is rescaled and the block's row sums are added. -/
theorem weight_next (c : Dev nD) (i : grid0.Coords) (a3 : Memref sig .tc .vmem S1x1024x1024 .f32) (h3 : a3.IsWhole) (a4 : Memref sig .tc .vmem S1x2048x1024 .f32) (h4 : a4.IsWhole) (a5 : Memref sig .tc .vmem S1x1024x1024 .f32) (h5 : a5.IsWhole) (a6 : Memref sig .tc .vmem S1024x1 .f32) (h6 : a6.IsWhole) (a7 : Memref sig .tc .vmem S1024x1 .f32) (h7 : a7.IsWhole) (a8 : Memref sig .tc .vmem S1024x1024 .f32) (h8 : a8.IsWhole) (hc0 : ¬cond0_0 i) (hc1 : cond0_1 i) (x0 : Vec F S1x1024x1024 .f32) (x1 : Vec F S1x2048x1024 .f32) (xs0 : Vec F S1024x1 .f32) (xs1 : Vec F S1024x1 .f32) (xs2 : Vec F S1024x1024 .f32) :
    sout0_B_1 c i a3 h3 a4 h4 a5 h5 a6 h6 a7 h7 a8 h8 hc0 hc1 x0 x1 xs0 xs1 xs2 = k0_pay12 x0 x1 xs0 xs1 := by
  unfold sout0_B_1
  rw [View.read_writes_eq_canon _ _ _ (scover0_B_1 c i a3 h3 a4 h4 a5 h5 a6 h6 a7 h7 a8 h8 hc0 hc1 x0 x1 xs0 xs1 xs2)]
  unfold kernelRun0_B
  dsimp only
  sl_unfold_words
  rw [View.canon_unit_zero hz2]
  simp only [View.readAt_eq_ld, h3.read_unread, h4.read_unread, h5.read_unread, h6.read_unread, h7.read_unread, h8.read_unread, View.ld_unit_zero (S := S1x1024x1024) hz3, View.ld_unit_zero (S := S1x2048x1024) hz3, View.ld_unit_zero (S := S1024x1) hz2, View.ld_unit_zero (S := S1024x1024) hz2, View.readCov_unit_zero (S := S1024x1) _ hz2, View.readCov_unit_zero (S := S1024x1024) _ hz2]

/-- Second key block: the accumulated values are rescaled and the block's weighted value rows are added. -/
theorem values_next (c : Dev nD) (i : grid0.Coords) (a3 : Memref sig .tc .vmem S1x1024x1024 .f32) (h3 : a3.IsWhole) (a4 : Memref sig .tc .vmem S1x2048x1024 .f32) (h4 : a4.IsWhole) (a5 : Memref sig .tc .vmem S1x1024x1024 .f32) (h5 : a5.IsWhole) (a6 : Memref sig .tc .vmem S1024x1 .f32) (h6 : a6.IsWhole) (a7 : Memref sig .tc .vmem S1024x1 .f32) (h7 : a7.IsWhole) (a8 : Memref sig .tc .vmem S1024x1024 .f32) (h8 : a8.IsWhole) (hc0 : ¬cond0_0 i) (hc1 : cond0_1 i) (x0 : Vec F S1x1024x1024 .f32) (x1 : Vec F S1x2048x1024 .f32) (xs0 : Vec F S1024x1 .f32) (xs1 : Vec F S1024x1 .f32) (xs2 : Vec F S1024x1024 .f32) :
    sout0_B_2 c i a3 h3 a4 h4 a5 h5 a6 h6 a7 h7 a8 h8 hc0 hc1 x0 x1 xs0 xs1 xs2 = k0_pay1 (k0_pay13 x0 x1 xs0 xs2) := by
  unfold sout0_B_2
  rw [View.read_writes_eq_canon _ _ _ (scover0_B_2 c i a3 h3 a4 h4 a5 h5 a6 h6 a7 h7 a8 h8 hc0 hc1 x0 x1 xs0 xs1 xs2)]
  unfold kernelRun0_B
  dsimp only
  sl_unfold_words
  rw [View.canon_unit_zero hz2]
  simp only [View.readAt_eq_ld, h3.read_unread, h4.read_unread, h5.read_unread, h6.read_unread, h7.read_unread, h8.read_unread, View.ld_unit_zero (S := S1x1024x1024) hz3, View.ld_unit_zero (S := S1x2048x1024) hz3, View.ld_unit_zero (S := S1024x1) hz2, View.ld_unit_zero (S := S1024x1024) hz2, View.readCov_unit_zero (S := S1024x1) _ hz2, View.readCov_unit_zero (S := S1024x1024) _ hz2]

/-- Second key block: the output block is the accumulated values divided, row by row, by the accumulated weight. -/
theorem out_next (c : Dev nD) (i : grid0.Coords) (a3 : Memref sig .tc .vmem S1x1024x1024 .f32) (h3 : a3.IsWhole) (a4 : Memref sig .tc .vmem S1x2048x1024 .f32) (h4 : a4.IsWhole) (a5 : Memref sig .tc .vmem S1x1024x1024 .f32) (h5 : a5.IsWhole) (a6 : Memref sig .tc .vmem S1024x1 .f32) (h6 : a6.IsWhole) (a7 : Memref sig .tc .vmem S1024x1 .f32) (h7 : a7.IsWhole) (a8 : Memref sig .tc .vmem S1024x1024 .f32) (h8 : a8.IsWhole) (hc0 : ¬cond0_0 i) (hc1 : cond0_1 i) (x0 : Vec F S1x1024x1024 .f32) (x1 : Vec F S1x2048x1024 .f32) (xs0 : Vec F S1024x1 .f32) (xs1 : Vec F S1024x1 .f32) (xs2 : Vec F S1024x1024 .f32) :
    out0_B_2 c i a3 h3 a4 h4 a5 h5 a6 h6 a7 h7 a8 h8 hc0 hc1 x0 x1 xs0 xs1 xs2 = k0_pay3 (k0_pay1 (k0_pay13 x0 x1 xs0 xs2)) (k0_pay12 x0 x1 xs0 xs1) := by
  unfold out0_B_2
  rw [View.read_writes_eq_canon _ _ _ (cover0_B_2 c i a3 h3 a4 h4 a5 h5 a6 h6 a7 h7 a8 h8 hc0 hc1 x0 x1 xs0 xs1 xs2)]
  unfold kernelRun0_B
  dsimp only
  sl_unfold_words
  rw [View.canon_unit_zero hz3]
  simp only [View.readAt_eq_ld, h3.read_unread, h4.read_unread, h5.read_unread, h6.read_unread, h7.read_unread, h8.read_unread, View.ld_unit_zero (S := S1x1024x1024) hz3, View.ld_unit_zero (S := S1x2048x1024) hz3, View.ld_unit_zero (S := S1024x1) hz2, View.ld_unit_zero (S := S1024x1024) hz2, View.readCov_unit_zero (S := S1024x1) _ hz2, View.readCov_unit_zero (S := S1024x1024) _ hz2]

end Cert.KernelIdeal.Pieces

end
-- ==== Proof.PayloadAt.lean ====
/-
  The body's arithmetic read at one index, over the extended reals.

  With `q` the block of query rows and `kv` the block of key rows (which are also the value rows): the score of
  query row `p` against key row `j` is their dot product over the feature axis; the new running maximum of row `p` is
  the maximum of the old one and the row's scores; the rescaling factor is the exponential of old minus new maximum;
  a weight is the exponential of a score minus the new maximum; the new running weight is the old one rescaled plus
  the row's weights; the new accumulated value at `(p, d)` is the old one rescaled plus the weights times the value
  column `d`; and the output at `(p, d)` is the accumulated value divided by the running weight of row `p`.
-/
import proofs.«100083_j72962904424712_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.At

open Cert.KernelIdeal Cert.KernelIdeal.Gen Cert.KernelIdeal.Facts₀

/-! ## Column layouts read at an index -/

/-- A vector of `a` entries cast to a column reads, at `(i, u)`, the entry `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column of 1024 entries broadcast along rows of length `b` reads, at `(p, c)`, the column's entry `p`. -/
theorem broadcastTo_col_apply {α : Type} {b : ℕ} (v : (⟨2, ![1024, 1]⟩ : Shape).Idx → α)
    (h : (⟨2, ![1024, 1]⟩ : Shape).Broadcasts ⟨2, ![1024, b]⟩) (p : Fin 1024) (c : Fin b) :
    broadcastTo ⟨2, ![1024, b]⟩ v h (ix2 p c) = v (ix2 p (0 : Fin 1)) := by
  refine broadcastTo_apply v h (ix2 p c) (ix2 p (0 : Fin 1)) fun ax => ?_
  match ax with
  | ⟨0, _⟩ =>
    show p.val = if (1024 : ℕ) = 1 then 0 else p.val
    rw [if_neg (by decide)]
  | ⟨1, _⟩ =>
    show 0 = if (1 : ℕ) = 1 then 0 else c.val
    rw [if_pos rfl]

/-! ## The two matrix products' operand indices, axis by axis -/

theorem lhsS_0 (i : S1024x2048.Idx) (q : dot_S1024x1024_S2048x1024_S1024x2048_1_1_0_0_n_n.contr.Idx) : (dot_S1024x1024_S2048x1024_S1024x2048_1_1_0_0_n_n.lhsIdx i q 0).val = (i 0).val := by
  unfold DotDims.lhsIdx
  rw [dif_neg (show ¬(0 : Fin S1024x1024.rank) ∈ dot_S1024x1024_S2048x1024_S1024x2048_1_1_0_0_n_n.lhsBatch by decide), dif_pos (show (0 : Fin S1024x1024.rank) ∈ dot_S1024x1024_S2048x1024_S1024x2048_1_1_0_0_n_n.lhsNonContracting by decide)]
  rfl
theorem lhsS_1 (i : S1024x2048.Idx) (q : dot_S1024x1024_S2048x1024_S1024x2048_1_1_0_0_n_n.contr.Idx) : (dot_S1024x1024_S2048x1024_S1024x2048_1_1_0_0_n_n.lhsIdx i q 1).val = (q ⟨0, by decide⟩).val :=
  dot_S1024x1024_S2048x1024_S1024x2048_1_1_0_0_n_n.lhsIdx_val_of_single rfl i q
theorem rhsS_0 (i : S1024x2048.Idx) (q : dot_S1024x1024_S2048x1024_S1024x2048_1_1_0_0_n_n.contr.Idx) : (dot_S1024x1024_S2048x1024_S1024x2048_1_1_0_0_n_n.rhsIdx i q 0).val = (i 1).val := by
  unfold DotDims.rhsIdx
  rw [dif_neg (show ¬(0 : Fin S2048x1024.rank) ∈ dot_S1024x1024_S2048x1024_S1024x2048_1_1_0_0_n_n.rhsBatch by decide), dif_pos (show (0 : Fin S2048x1024.rank) ∈ dot_S1024x1024_S2048x1024_S1024x2048_1_1_0_0_n_n.rhsNonContracting by decide)]
  rfl
theorem rhsS_1 (i : S1024x2048.Idx) (q : dot_S1024x1024_S2048x1024_S1024x2048_1_1_0_0_n_n.contr.Idx) : (dot_S1024x1024_S2048x1024_S1024x2048_1_1_0_0_n_n.rhsIdx i q 1).val = (q ⟨0, by decide⟩).val :=
  dot_S1024x1024_S2048x1024_S1024x2048_1_1_0_0_n_n.rhsIdx_val_of_single rfl i q

theorem lhsV_0 (i : S1024x1024.Idx) (q : dot_S1024x2048_S2048x1024_S1024x1024_1_0_0_1_n_n.contr.Idx) : (dot_S1024x2048_S2048x1024_S1024x1024_1_0_0_1_n_n.lhsIdx i q 0).val = (i 0).val := by
  unfold DotDims.lhsIdx
  rw [dif_neg (show ¬(0 : Fin S1024x2048.rank) ∈ dot_S1024x2048_S2048x1024_S1024x1024_1_0_0_1_n_n.lhsBatch by decide), dif_pos (show (0 : Fin S1024x2048.rank) ∈ dot_S1024x2048_S2048x1024_S1024x1024_1_0_0_1_n_n.lhsNonContracting by decide)]
  rfl
theorem lhsV_1 (i : S1024x1024.Idx) (q : dot_S1024x2048_S2048x1024_S1024x1024_1_0_0_1_n_n.contr.Idx) : (dot_S1024x2048_S2048x1024_S1024x1024_1_0_0_1_n_n.lhsIdx i q 1).val = (q ⟨0, by decide⟩).val :=
  dot_S1024x2048_S2048x1024_S1024x1024_1_0_0_1_n_n.lhsIdx_val_of_single rfl i q
theorem rhsV_0 (i : S1024x1024.Idx) (q : dot_S1024x2048_S2048x1024_S1024x1024_1_0_0_1_n_n.contr.Idx) : (dot_S1024x2048_S2048x1024_S1024x1024_1_0_0_1_n_n.rhsIdx i q 0).val = (q ⟨0, by decide⟩).val :=
  dot_S1024x2048_S2048x1024_S1024x1024_1_0_0_1_n_n.rhsIdx_val_of_single rfl i q
theorem rhsV_1 (i : S1024x1024.Idx) (q : dot_S1024x2048_S2048x1024_S1024x1024_1_0_0_1_n_n.contr.Idx) : (dot_S1024x2048_S2048x1024_S1024x1024_1_0_0_1_n_n.rhsIdx i q 1).val = (i 1).val := by
  unfold DotDims.rhsIdx
  rw [dif_neg (show ¬(1 : Fin S2048x1024.rank) ∈ dot_S1024x2048_S2048x1024_S1024x1024_1_0_0_1_n_n.rhsBatch by decide), dif_pos (show (1 : Fin S2048x1024.rank) ∈ dot_S1024x2048_S2048x1024_S1024x1024_1_0_0_1_n_n.rhsNonContracting by decide)]
  rfl

/-- A row index with the reduced coordinate put back is the index by its two coordinates. -/
theorem lift_row (h : S1024x2048.Reduces [1] S1024) (p : Fin 1024) (k : Fin 2048) : h.lift (ix1 p) k = ix2 p k :=
  funext fun a => Fin.ext (by match a with | ⟨0, _⟩ => rfl | ⟨1, _⟩ => rfl)

/-! ## The payloads -/

variable (x0 : Vec Ideal S1x1024x1024 .f32) (x1 : Vec Ideal S1x2048x1024 .f32)

/-- The score of query row `p` against key row `j`: the rows' dot product. -/
theorem scores_at (p : Fin 1024) (j : Fin 2048) :
    k0_pay8 (F := Ideal) x0 x1 (ix2 p j) = ∑ k : Fin 1024, x0 (ix3 (0 : Fin 1) p k) * x1 (ix3 (0 : Fin 1) j k) := by
  unfold k0_pay8 k0_pay7
  refine (Ideal.matmul_constant_zero_apply dot_S1024x1024_S2048x1024_S1024x2048_1_1_0_0_n_n none _ _ (ix2 p j)).trans ?_
  rw [← Equiv.sum_comp (contrEquiv1 dot_S1024x1024_S2048x1024_S1024x2048_1_1_0_0_n_n 1024 rfl rfl).symm]
  refine Finset.sum_congr rfl fun k _ => ?_
  have hk := contrEquiv1_symm_val dot_S1024x1024_S2048x1024_S1024x2048_1_1_0_0_n_n 1024 rfl rfl k
  have el : dot_S1024x1024_S2048x1024_S1024x2048_1_1_0_0_n_n.lhsIdx (ix2 p j) ((contrEquiv1 dot_S1024x1024_S2048x1024_S1024x2048_1_1_0_0_n_n 1024 rfl rfl).symm k) = ix2 p k := funext fun a => Fin.ext (by
    match a with
    | ⟨0, _⟩ => exact lhsS_0 _ _
    | ⟨1, _⟩ => exact (lhsS_1 _ _).trans hk)
  have er : dot_S1024x1024_S2048x1024_S1024x2048_1_1_0_0_n_n.rhsIdx (ix2 p j) ((contrEquiv1 dot_S1024x1024_S2048x1024_S1024x2048_1_1_0_0_n_n 1024 rfl rfl).symm k) = ix2 j k := funext fun a => Fin.ext (by
    match a with
    | ⟨0, _⟩ => exact rhsS_0 _ _
    | ⟨1, _⟩ => exact (rhsS_1 _ _).trans hk)
  rw [el, er]
  show shapeCast S1024x1024 x0 _ (ix2 p k) * shapeCast S2048x1024 x1 _ (ix2 j k) = _
  rw [shapeCast_1ab_ab_apply, shapeCast_1ab_ab_apply]

variable (v10 : Vec Ideal S1024x1 .f32)

/-- The new running maximum of row `p`: the old one against the maximum of the row's scores. -/
theorem newmax_at (p : Fin 1024) :
    k0_pay9 (F := Ideal) x0 x1 v10 (ix2 p (0 : Fin 1))
      = max (v10 (ix2 p (0 : Fin 1)))
          ((Finset.univ : Finset (Fin 2048)).fold max (Ideal.ofBits .f32 0xFF800000#32)
            (fun j => k0_pay8 (F := Ideal) x0 x1 (ix2 p j))) := by
  unfold k0_pay9
  (try dsimp only)
  refine (maximumf_apply _ _ _).trans (congrArg (max _) ?_)
  refine (shapeCast_a_a1_apply _ _ p (0 : Fin 1)).trans ?_
  refine (Ideal.multiReduction_maximumf_single (k0_pay8 (F := Ideal) x0 x1) _ _ _ _ (ix1 p)).trans ?_
  rfl

/-- The rescaling factor of row `p`: the exponential of the old maximum minus the new one. -/
theorem rescale_at (p : Fin 1024) :
    k0_pay10 (F := Ideal) x0 x1 v10 (ix2 p (0 : Fin 1))
      = Ideal.exp (v10 (ix2 p (0 : Fin 1)) - k0_pay9 (F := Ideal) x0 x1 v10 (ix2 p (0 : Fin 1))) := rfl

/-- The weight of key row `j` for query row `p`: the exponential of the score minus the new maximum. -/
theorem weights_at (p : Fin 1024) (j : Fin 2048) :
    k0_pay11 (F := Ideal) x0 x1 v10 (ix2 p j)
      = Ideal.exp (k0_pay8 (F := Ideal) x0 x1 (ix2 p j) - k0_pay9 (F := Ideal) x0 x1 v10 (ix2 p (0 : Fin 1))) := by
  unfold k0_pay11
  (try dsimp only)
  show Ideal.exp (k0_pay8 (F := Ideal) x0 x1 (ix2 p j) - broadcastTo S1024x2048 (k0_pay9 (F := Ideal) x0 x1 v10) _ (ix2 p j)) = _
  exact congrArg (fun z => Ideal.exp (k0_pay8 (F := Ideal) x0 x1 (ix2 p j) - z)) (broadcastTo_col_apply _ _ p j)

/-- The new running weight of row `p`: the old one rescaled plus the row's weights. -/
theorem weightsum_at (v19 : Vec Ideal S1024x1 .f32) (p : Fin 1024) :
    k0_pay12 (F := Ideal) x0 x1 v10 v19 (ix2 p (0 : Fin 1))
      = k0_pay10 (F := Ideal) x0 x1 v10 (ix2 p (0 : Fin 1)) * v19 (ix2 p (0 : Fin 1))
        + ∑ j : Fin 2048, k0_pay11 (F := Ideal) x0 x1 v10 (ix2 p j) := by
  unfold k0_pay12
  (try dsimp only)
  refine (congrFun (shapeCast_self _ _) _).trans ?_
  refine (addf_apply _ _ _).trans ?_
  refine congrArg (fun z => k0_pay10 (F := Ideal) x0 x1 v10 (ix2 p (0 : Fin 1)) * v19 (ix2 p (0 : Fin 1)) + z) ?_
  refine (shapeCast_a_a1_apply _ _ p (0 : Fin 1)).trans ?_
  refine (Ideal.multiReduction_add_single (k0_pay11 (F := Ideal) x0 x1 v10) _ _ _ _ (ix1 p)).trans ?_
  exact Finset.sum_congr rfl fun k _ => congrArg (k0_pay11 (F := Ideal) x0 x1 v10) (lift_row _ p k)

/-- The new accumulated value at `(p, d)`: the old one rescaled plus the weights times the value column `d`. -/
theorem valuesum_at (v27 : Vec Ideal S1024x1024 .f32) (p d : Fin 1024) :
    k0_pay13 (F := Ideal) x0 x1 v10 v27 (ix2 p d)
      = k0_pay10 (F := Ideal) x0 x1 v10 (ix2 p (0 : Fin 1)) * v27 (ix2 p d)
        + ∑ j : Fin 2048, k0_pay11 (F := Ideal) x0 x1 v10 (ix2 p j) * x1 (ix3 (0 : Fin 1) j d) := by
  unfold k0_pay13 k0_pay7
  (try dsimp only)
  refine (addf_apply _ _ _).trans ?_
  congr 1
  · exact congrArg (· * v27 (ix2 p d)) (broadcastTo_col_apply _ _ p d)
  · refine (Ideal.matmul_constant_zero_apply dot_S1024x2048_S2048x1024_S1024x1024_1_0_0_1_n_n none _ _ (ix2 p d)).trans ?_
    rw [← Equiv.sum_comp (contrEquiv1 dot_S1024x2048_S2048x1024_S1024x1024_1_0_0_1_n_n 2048 rfl rfl).symm]
    refine Finset.sum_congr rfl fun k _ => ?_
    have hk := contrEquiv1_symm_val dot_S1024x2048_S2048x1024_S1024x1024_1_0_0_1_n_n 2048 rfl rfl k
    have el : dot_S1024x2048_S2048x1024_S1024x1024_1_0_0_1_n_n.lhsIdx (ix2 p d) ((contrEquiv1 dot_S1024x2048_S2048x1024_S1024x1024_1_0_0_1_n_n 2048 rfl rfl).symm k) = ix2 p k := funext fun a => Fin.ext (by
      match a with
      | ⟨0, _⟩ => exact lhsV_0 _ _
      | ⟨1, _⟩ => exact (lhsV_1 _ _).trans hk)
    have er : dot_S1024x2048_S2048x1024_S1024x1024_1_0_0_1_n_n.rhsIdx (ix2 p d) ((contrEquiv1 dot_S1024x2048_S2048x1024_S1024x1024_1_0_0_1_n_n 2048 rfl rfl).symm k) = ix2 k d := funext fun a => Fin.ext (by
      match a with
      | ⟨0, _⟩ => exact (rhsV_0 _ _).trans hk
      | ⟨1, _⟩ => exact rhsV_1 _ _)
    rw [el, er]
    show k0_pay11 (F := Ideal) x0 x1 v10 (ix2 p k) * shapeCast S2048x1024 x1 _ (ix2 k d) = _
    rw [shapeCast_1ab_ab_apply]

/-- The output at `(p, d)`: the accumulated value divided by the running weight of row `p`. -/
theorem quotient_at (v42 : Vec Ideal S1024x1024 .f32) (v43 : Vec Ideal S1024x1 .f32) (u : Fin 1) (p d : Fin 1024) :
    k0_pay3 (F := Ideal) v42 v43 (ix3 u p d) = Ideal.div (v42 (ix2 p d)) (v43 (ix2 p (0 : Fin 1))) := by
  unfold k0_pay3
  (try dsimp only)
  refine (shapeCast_ab_1ab_apply _ _ u p d).trans ?_
  refine (divf_apply _ _ _).trans ?_
  exact congrArg (Ideal.div (v42 (ix2 p d))) (broadcastTo_col_apply _ _ p d)

/-- The identity casts around the stores. -/
theorem pay1_eq (v : FVec Ideal S1024x1024 .f32) : k0_pay1 (F := Ideal) v = v := shapeCast_self _ _
theorem pay2_eq (v : FVec Ideal S1024x1 .f32) : k0_pay2 (F := Ideal) v = v := shapeCast_self _ _

/-- The reset values: -∞ for the running maximum, 0 for the two running sums. -/
theorem pay4_at (i : S1024x1.Idx) : k0_pay4 (F := Ideal) i = Ideal.ofBits .f32 0xFF800000#32 := by
  unfold k0_pay4; exact congrFun (shapeCast_self _ _) i
theorem pay5_at (i : S1024x1.Idx) : k0_pay5 (F := Ideal) i = Ideal.ofBits .f32 0x00000000#32 := by
  unfold k0_pay5; exact congrFun (shapeCast_self _ _) i
theorem pay6_at (i : S1024x1024.Idx) : k0_pay6 (F := Ideal) i = Ideal.ofBits .f32 0x00000000#32 := by
  unfold k0_pay6; exact congrFun (shapeCast_self _ _) i

end Cert.KernelIdeal.At

end
-- ==== Proof.SoftmaxLaw.lean ====
/-
  The laws behind softmax attention computed over the key rows in two blocks with a running maximum.

  For one output entry let `σ e` be the score of key row `e` and `ν e` the value entry it weights. Whatever
  real number `μ` is subtracted from every score, the quotient of `∑ exp (σ e - μ) · ν e` by `∑ exp (σ e - μ)`
  is the quotient of `∑ exp (σ e) · ν e` by `∑ exp (σ e)`: both sums carry the factor `exp (-μ)`. `Carried`
  says that three extended reals are such a `μ` and the two sums against it over the rows seen so far;
  `carried_first` and `carried_next` are the updates over a first block and over a further block of rows
  (the earlier sums rescaled by `exp (μ - μ')`), `carried_div` the final quotient, and `ref_row` the same
  value computed in one pass with the normalised weights `exp (σ e - M) / ∑ exp (σ e' - M)`.
  All of it needs the scores, values and maxima to be real numbers: on the extended reals the products do
  not distribute over the sums at the infinities.
-/
import Idealize.ShloMosaic.PureOps.Ideal

noncomputable section

namespace Cert.Attn.Law

open Idealize.ShloMosaic

/-- The coercion of the reals into the extended reals commutes with finite sums. -/
theorem coe_sum {ι : Type*} (s : Finset ι) (f : ι → ℝ) : ((∑ e ∈ s, f e : ℝ) : EReal) = ∑ e ∈ s, (f e : EReal) := by
  classical
  refine Finset.induction_on s (by simp) ?_
  intro a s ha ih
  rw [Finset.sum_insert ha, Finset.sum_insert ha, EReal.coe_add, ih]

/-- The pattern of negative infinity denotes the bottom element. -/
theorem ofBits_neg_inf : Ideal.ofBits .f32 0xFF800000#32 = (⊥ : EReal) := by
  simp [Ideal.ofBits, Ideal.ieee]

variable {ι : Type*} [Fintype ι]

/-- A maximum of real numbers taken from a start that is not `+∞`, over a nonempty family, is a real number. -/
theorem fold_max_real [Nonempty ι] (f : ι → ℝ) (b : EReal) (hb : b ≠ ⊤) :
    ∃ μ : ℝ, (Finset.univ : Finset ι).fold max b (fun e => (f e : EReal)) = (μ : EReal) := by
  have htop : (Finset.univ : Finset ι).fold max b (fun e => (f e : EReal)) ≠ ⊤ := by
    apply ne_of_lt
    rw [Finset.fold_max_lt]
    exact ⟨lt_top_iff_ne_top.mpr hb, fun x _ => EReal.coe_lt_top _⟩
  have hbot : (Finset.univ : Finset ι).fold max b (fun e => (f e : EReal)) ≠ ⊥ := by
    obtain ⟨e0⟩ := ‹Nonempty ι›
    apply ne_of_gt
    refine lt_of_lt_of_le (EReal.bot_lt_coe (f e0)) ?_
    rw [Finset.le_fold_max]
    exact Or.inr ⟨e0, Finset.mem_univ _, le_refl _⟩
  exact ⟨_, (EReal.coe_toReal htop hbot).symm⟩

/-- The maximum of a value that is not `+∞` and a real number is a real number. -/
theorem max_real (a : EReal) (ha : a ≠ ⊤) (r : ℝ) : ∃ μ : ℝ, max a (r : EReal) = (μ : EReal) := by
  induction a using EReal.rec with
  | bot => exact ⟨r, max_eq_right bot_le⟩
  | top => exact absurd rfl ha
  | coe q => exact ⟨max q r, (EReal.coe_strictMono.monotone.map_max).symm⟩

/-- `exp` of a difference of reals, on the extended reals. -/
theorem exp_coe_sub (x y : ℝ) : Ideal.exp ((x : EReal) - (y : EReal)) = ((Real.exp (x - y) : ℝ) : EReal) := by
  rw [← EReal.coe_sub, Ideal.exp_coe]

/-- The three values carried for one output entry after the key rows `ι`: a real `μ`, and the sums of
    `exp (σ e - μ)` and of `exp (σ e - μ) · ν e` over those rows. -/
def Carried (σ ν : ι → ℝ) (m l acc : EReal) : Prop :=
  ∃ μ : ℝ, m = (μ : EReal) ∧ l = ((∑ e, Real.exp (σ e - μ) : ℝ) : EReal)
    ∧ acc = ((∑ e, Real.exp (σ e - μ) * ν e : ℝ) : EReal)

/-- The first block of rows: the carried sums start from zero, so whatever multiplies the zeros drops out. -/
theorem carried_first (σ ν : ι → ℝ) (a a' m : EReal) (hm : ∃ μ : ℝ, m = (μ : EReal)) :
    Carried σ ν m (a * 0 + ∑ j, Ideal.exp ((σ j : EReal) - m))
      (a' * 0 + ∑ j, Ideal.exp ((σ j : EReal) - m) * (ν j : EReal)) := by
  obtain ⟨μ, rfl⟩ := hm
  refine ⟨μ, rfl, ?_, ?_⟩
  · rw [mul_zero, zero_add, coe_sum]
    exact Finset.sum_congr rfl fun j _ => exp_coe_sub _ _
  · rw [mul_zero, zero_add, coe_sum]
    exact Finset.sum_congr rfl fun j _ => by rw [exp_coe_sub, EReal.coe_mul]

/-- A further block of rows `κ` with a new real maximum `m'`: the sums so far are rescaled by `exp (m - m')` and the
    block's terms, taken against `m'`, are added. -/
theorem carried_next {κ : Type*} [Fintype κ] (σ ν : ι → ℝ) (σ' ν' : κ → ℝ) (m l acc : EReal)
    (h : Carried σ ν m l acc) (m' : EReal) (hm' : ∃ μ' : ℝ, m' = (μ' : EReal)) :
    Carried (Sum.elim σ σ') (Sum.elim ν ν') m'
      (Ideal.exp (m - m') * l + ∑ j, Ideal.exp ((σ' j : EReal) - m'))
      (Ideal.exp (m - m') * acc + ∑ j, Ideal.exp ((σ' j : EReal) - m') * (ν' j : EReal)) := by
  obtain ⟨μ, rfl, rfl, rfl⟩ := h
  obtain ⟨μ', rfl⟩ := hm'
  have hres : ∀ s : ℝ, Real.exp (μ - μ') * Real.exp (s - μ) = Real.exp (s - μ') := fun s => by
    rw [← Real.exp_add]; congr 1; ring
  refine ⟨μ', rfl, ?_, ?_⟩
  · rw [exp_coe_sub, ← EReal.coe_mul, Fintype.sum_sum_type]
    simp only [Sum.elim_inl, Sum.elim_inr]
    rw [EReal.coe_add, Finset.mul_sum]
    congr 1
    · exact congrArg _ (Finset.sum_congr rfl fun e _ => hres _)
    · rw [coe_sum]; exact Finset.sum_congr rfl fun j _ => exp_coe_sub _ _
  · rw [exp_coe_sub, ← EReal.coe_mul, Fintype.sum_sum_type]
    simp only [Sum.elim_inl, Sum.elim_inr]
    rw [EReal.coe_add, Finset.mul_sum]
    congr 1
    · exact congrArg _ (Finset.sum_congr rfl fun e _ => by rw [← mul_assoc, hres])
    · rw [coe_sum]; exact Finset.sum_congr rfl fun j _ => by rw [exp_coe_sub, EReal.coe_mul]

/-- Subtracting one real from every score changes neither quotient. -/
theorem quotient_shift [Nonempty ι] (σ ν : ι → ℝ) (μ : ℝ) :
    (∑ e, Real.exp (σ e - μ) * ν e) * (1 / ∑ e, Real.exp (σ e - μ))
      = (∑ e, Real.exp (σ e) * ν e) / (∑ e, Real.exp (σ e)) := by
  have hE : Real.exp μ ≠ 0 := (Real.exp_pos μ).ne'
  have hZ : (∑ e, Real.exp (σ e)) ≠ 0 :=
    (Finset.sum_pos (fun e _ => Real.exp_pos (σ e)) Finset.univ_nonempty).ne'
  have h1 : (∑ e, Real.exp (σ e - μ) * ν e) = (∑ e, Real.exp (σ e) * ν e) / Real.exp μ := by
    rw [Finset.sum_div]; exact Finset.sum_congr rfl fun e _ => by rw [Real.exp_sub]; ring
  have h2 : (∑ e, Real.exp (σ e - μ)) = (∑ e, Real.exp (σ e)) / Real.exp μ := by
    rw [Finset.sum_div]; exact Finset.sum_congr rfl fun e _ => by rw [Real.exp_sub]
  rw [h1, h2]
  field_simp

/-- The positive sum of exponentials is not zero. -/
theorem sum_exp_ne_zero [Nonempty ι] (σ : ι → ℝ) (μ : ℝ) : (∑ e, Real.exp (σ e - μ)) ≠ 0 :=
  (Finset.sum_pos (fun e _ => Real.exp_pos (σ e - μ)) Finset.univ_nonempty).ne'

/-- The final quotient of the carried sums is the exp-score-weighted average of the values. -/
theorem carried_div [Nonempty ι] (σ ν : ι → ℝ) (m l acc : EReal) (h : Carried σ ν m l acc) :
    Ideal.div acc l = (((∑ e, Real.exp (σ e) * ν e) / (∑ e, Real.exp (σ e)) : ℝ) : EReal) := by
  obtain ⟨μ, -, rfl, rfl⟩ := h
  rw [Ideal.div_coe (sum_exp_ne_zero σ μ), ← EReal.coe_mul, quotient_shift]

/-- The one-pass form: every weight normalised by the whole sum, then the weighted values added up. `z` is the
    zero the sum starts from, `M` any real stabiliser. -/
theorem ref_row [Nonempty ι] (σ ν : ι → ℝ) (M z : EReal) (hM : ∃ μ : ℝ, M = (μ : EReal)) (hz : z = 0) :
    ∑ e, Ideal.div (Ideal.exp ((σ e : EReal) - M)) (z + ∑ e', Ideal.exp ((σ e' : EReal) - M)) * (ν e : EReal)
      = (((∑ e, Real.exp (σ e) * ν e) / (∑ e, Real.exp (σ e)) : ℝ) : EReal) := by
  obtain ⟨μ, rfl⟩ := hM
  subst hz
  have hL : (∑ e', Ideal.exp ((σ e' : EReal) - (μ : EReal))) = ((∑ e', Real.exp (σ e' - μ) : ℝ) : EReal) := by
    rw [coe_sum]; exact Finset.sum_congr rfl fun j _ => exp_coe_sub _ _
  have hR : ((∑ e, Real.exp (σ e - μ) * ν e) * (1 / ∑ e', Real.exp (σ e' - μ)) : ℝ)
      = ∑ e, Real.exp (σ e - μ) * ν e * (1 / ∑ e', Real.exp (σ e' - μ)) := Finset.sum_mul _ _ _
  rw [zero_add, ← quotient_shift σ ν μ, hR, coe_sum, hL]
  exact Finset.sum_congr rfl fun e _ => by
    rw [Ideal.div_coe (sum_exp_ne_zero σ μ), exp_coe_sub, ← EReal.coe_mul, ← EReal.coe_mul]
    congr 1; ring

/-- A sum over the 4096 key rows is the sum over the first 2048 plus the sum over the last 2048. -/
theorem sum_two_blocks (f : Fin 4096 → ℝ) :
    ∑ x : Fin 2048 ⊕ Fin 2048,
        Sum.elim (fun j : Fin 2048 => f ⟨j.val, by omega⟩) (fun j : Fin 2048 => f ⟨2048 + j.val, by omega⟩) x
      = ∑ e, f e := by
  rw [Fintype.sum_sum_type]
  simp only [Sum.elim_inl, Sum.elim_inr]
  exact (Fin.sum_univ_add (a := 2048) (b := 2048) f).symm

end Cert.Attn.Law

end
-- ==== Proof.BlockRows.lean ====
/-
  One output entry of a block of query rows, followed through the two key blocks.

  For query row `p` and value column `d`, with `σ j` the real score of key row `j` of a block and `ν j` its value
  entry: after the first key block the three carried values are a real maximum and the two sums of
  exponentials against it (`first_block`); the second key block updates them (`next_block`); and the quotient the
  body finally stores is the exp-score-weighted average of the value entries over both blocks' rows
  (`block_value`). The running maxima are only ever used as real numbers, never by their values.
-/
import proofs.«100083_j72962904424712_2_alg».proof.Proof.PayloadAt
import proofs.«100083_j72962904424712_2_alg».proof.Proof.SoftmaxLaw

noncomputable section

open Idealize.ShloMosaic Idealize.ShloMosaic.ValueIdx

namespace Cert.KernelIdeal.Rows

open Cert.KernelIdeal Cert.KernelIdeal.Gen Cert.KernelIdeal.At Cert.Attn.Law

instance : Nonempty (Fin 2048) := ⟨⟨0, by decide⟩⟩

variable (Q : Vec Ideal S1x1024x1024 .f32) (K : Vec Ideal S1x2048x1024 .f32)

/-- With real scores, the maximum of a row's scores taken from -∞ is a real number. -/
theorem rowmax_real (p : Fin 1024) (σ : Fin 2048 → ℝ)
    (hs : ∀ j, k0_pay8 (F := Ideal) Q K (ix2 p j) = (σ j : EReal)) :
    ∃ ρ : ℝ, (Finset.univ : Finset (Fin 2048)).fold max (Ideal.ofBits .f32 0xFF800000#32)
        (fun j => k0_pay8 (F := Ideal) Q K (ix2 p j)) = (ρ : EReal) := by
  rw [show (fun j => k0_pay8 (F := Ideal) Q K (ix2 p j)) = fun j => (σ j : EReal) from funext hs, ofBits_neg_inf]
  exact fold_max_real σ ⊥ bot_ne_top

/-- After the first key block: the carried values of entry `(p, d)` over that block's rows. -/
theorem first_block (p d : Fin 1024) (σ ν : Fin 2048 → ℝ)
    (hs : ∀ j, k0_pay8 (F := Ideal) Q K (ix2 p j) = (σ j : EReal))
    (hv : ∀ j, K (ix3 (0 : Fin 1) j d) = (ν j : EReal)) :
    Carried σ ν (k0_pay9 (F := Ideal) Q K (k0_pay4 (F := Ideal)) (ix2 p (0 : Fin 1)))
      (k0_pay12 (F := Ideal) Q K (k0_pay4 (F := Ideal)) (k0_pay5 (F := Ideal)) (ix2 p (0 : Fin 1)))
      (k0_pay13 (F := Ideal) Q K (k0_pay4 (F := Ideal)) (k0_pay6 (F := Ideal)) (ix2 p d)) := by
  obtain ⟨ρ, hρ⟩ := rowmax_real Q K p σ hs
  have hm : ∃ μ : ℝ, k0_pay9 (F := Ideal) Q K (k0_pay4 (F := Ideal)) (ix2 p (0 : Fin 1)) = (μ : EReal) := by
    rw [newmax_at, hρ, pay4_at, ofBits_neg_inf]
    exact ⟨ρ, max_eq_right bot_le⟩
  rw [weightsum_at, valuesum_at, pay5_at, pay6_at, Ideal.ofBits_zero_f32]
  simp only [weights_at, hs, hv]
  exact carried_first σ ν _ _ _ hm

/-- After a further key block: the carried values over the earlier rows and this block's rows. -/
theorem next_block (p d : Fin 1024) {ι : Type} [Fintype ι] (σ0 ν0 : ι → ℝ) (σ ν : Fin 2048 → ℝ)
    (xs0 xs1 : Vec Ideal S1024x1 .f32) (xs2 : Vec Ideal S1024x1024 .f32)
    (hc : Carried σ0 ν0 (xs0 (ix2 p (0 : Fin 1))) (xs1 (ix2 p (0 : Fin 1))) (xs2 (ix2 p d)))
    (hs : ∀ j, k0_pay8 (F := Ideal) Q K (ix2 p j) = (σ j : EReal))
    (hv : ∀ j, K (ix3 (0 : Fin 1) j d) = (ν j : EReal)) :
    Carried (Sum.elim σ0 σ) (Sum.elim ν0 ν) (k0_pay9 (F := Ideal) Q K xs0 (ix2 p (0 : Fin 1)))
      (k0_pay12 (F := Ideal) Q K xs0 xs1 (ix2 p (0 : Fin 1)))
      (k0_pay13 (F := Ideal) Q K xs0 xs2 (ix2 p d)) := by
  obtain ⟨ρ, hρ⟩ := rowmax_real Q K p σ hs
  have hm' : ∃ μ' : ℝ, k0_pay9 (F := Ideal) Q K xs0 (ix2 p (0 : Fin 1)) = (μ' : EReal) := by
    rw [newmax_at, hρ]
    obtain ⟨μ, hμ, -, -⟩ := hc
    rw [hμ]
    exact max_real _ (EReal.coe_ne_top μ) ρ
  rw [weightsum_at, valuesum_at, rescale_at]
  simp only [weights_at, hs, hv]
  exact carried_next σ0 ν0 σ ν _ _ _ hc _ hm'

/-- What the body stores in the output block at `(u, p, d)` after both key blocks, `K0` then `K1` (the query block
    staged at the two points is `Q0` then `Q1`): the exp-score-weighted average of the value entries over the rows of
    both blocks. -/
theorem block_value (Q0 Q1 : Vec Ideal S1x1024x1024 .f32) (K0 K1 : Vec Ideal S1x2048x1024 .f32)
    (u : Fin 1) (p d : Fin 1024) (σ0 ν0 σ1 ν1 : Fin 2048 → ℝ)
    (hs0 : ∀ j, k0_pay8 (F := Ideal) Q0 K0 (ix2 p j) = (σ0 j : EReal))
    (hv0 : ∀ j, K0 (ix3 (0 : Fin 1) j d) = (ν0 j : EReal))
    (hs1 : ∀ j, k0_pay8 (F := Ideal) Q1 K1 (ix2 p j) = (σ1 j : EReal))
    (hv1 : ∀ j, K1 (ix3 (0 : Fin 1) j d) = (ν1 j : EReal)) :
    k0_pay3 (F := Ideal)
        (k0_pay1 (k0_pay13 Q1 K1 (k0_pay2 (k0_pay9 Q0 K0 (k0_pay4 (F := Ideal))))
          (k0_pay1 (k0_pay13 Q0 K0 (k0_pay4 (F := Ideal)) (k0_pay6 (F := Ideal))))))
        (k0_pay12 Q1 K1 (k0_pay2 (k0_pay9 Q0 K0 (k0_pay4 (F := Ideal))))
          (k0_pay12 Q0 K0 (k0_pay4 (F := Ideal)) (k0_pay5 (F := Ideal)))) (ix3 u p d)
      = (((∑ x, Real.exp (Sum.elim σ0 σ1 x) * Sum.elim ν0 ν1 x) / (∑ x, Real.exp (Sum.elim σ0 σ1 x)) : ℝ) : EReal) := by
  rw [pay1_eq, pay1_eq, pay2_eq, quotient_at]
  exact carried_div _ _ _ _ _
    (next_block Q1 K1 p d σ0 ν0 σ1 ν1 _ _ _ (first_block Q0 K0 p d σ0 ν0 hs0 hv0) hs1 hv1)

end Cert.KernelIdeal.Rows

end
-- ==== Proof.AttnSpec.lean ====
/-
  Softmax attention of one array of queries against one array of keys that are also the values, as ONE
  function of the two argument arrays, index by index.

  For batch `b`, query row `t` and key row `e` the score is the dot product of the two rows over the feature
  axis; the result at `(b, t, d)` is the average of the value entries `enc (b, e, d)` over the key rows `e`,
  weighted by the exponentials of the scores. No maximum is subtracted here: subtracting any one real number
  from every score of a row changes numerator and denominator by the same positive factor, which is why
  both programs, each with its own stabilising maxima, compute this function.

  The function is stated over the reals the finite entries denote (`EReal.toReal`); `AllReal` says an array's
  entries are all real numbers, which is what the precondition gives.
-/
import Idealize.ShloMosaic.PureOps.Ideal
import Idealize.ShloMosaic.Lib.ValueIdx

noncomputable section

namespace Cert.Attn

open Idealize.ShloMosaic Idealize.ShloMosaic.ValueIdx

/-- The shape of both arguments and of the result: batch × rows × features. -/
abbrev SArr : Shape := ⟨3, ![4, 4096, 1024]⟩

/-- Every entry of the array is a real number (neither infinity). -/
def AllReal (x : SArr.Idx → EReal) : Prop := ∀ i, ∃ r : ℝ, x i = (r : EReal)

theorem AllReal.coe_toReal {x : SArr.Idx → EReal} (h : AllReal x) (i : SArr.Idx) : ((x i).toReal : EReal) = x i := by
  obtain ⟨r, hr⟩ := h i
  rw [hr, EReal.toReal_coe]

/-- The score of key row `e` against query row `t` in batch `b`: the rows' dot product over the feature axis. -/
def score (enc dec : SArr.Idx → EReal) (b : Fin 4) (t e : Fin 4096) : ℝ :=
  ∑ k : Fin 1024, (enc (ix3 b e k)).toReal * (dec (ix3 b t k)).toReal

/-- Softmax attention: at `(b, t, d)` the exp-score-weighted average of `enc (b, e, d)` over the key rows `e`. -/
def attn (enc dec : SArr.Idx → EReal) : SArr.Idx → EReal := fun i =>
  (((∑ e : Fin 4096, Real.exp (score enc dec (i 0) (i 1) e) * (enc (ix3 (i 0) e (i 2))).toReal)
      / (∑ e : Fin 4096, Real.exp (score enc dec (i 0) (i 1) e)) : ℝ) : EReal)

end Cert.Attn

end
-- ==== Proof.KernelValue.lean ====
/-
  The kernel's result array, index by index, as softmax attention of the two argument arrays.

  The grid runs over (batch, block of 1024 query rows, block of 2048 key rows), the key-block coordinate fastest:
  point `t` has batch `t / 8`, query block `t / 2 % 4` and key block `t % 2`. The query window stages rows
  `1024 · (t / 2 % 4) + p` of `dec`, the key window rows `2048 · (t % 2) + j` of `enc`, and the output window is written
  back at the odd points, where the body has seen both key blocks of its query block. What an odd point writes back
  at `(p, d)` is the exp-score-weighted average of `enc (b, e, d)` over all 4096 key rows `e` (`BlockRows.block_value`,
  the two half sums joined), that is, the specification's entry; the sixteen written-back blocks cover the array.
-/
import proofs.«100083_j72962904424712_2_alg».proof.Proof.Gen.KernelIdeal.Value
import proofs.«100083_j72962904424712_2_alg».proof.Proof.CasePieces
import proofs.«100083_j72962904424712_2_alg».proof.Proof.BlockRows
import proofs.«100083_j72962904424712_2_alg».proof.Proof.AttnSpec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Attn Cert.Attn.Law

variable (m : (ℓ : Loc nD τ sig) → Buf (Elt Ideal) ℓ) (ρ : Dev nD → PrngReg)

/-! ## The index maps, decided over the grid -/

theorem idx_facts : ∀ t : Fin cfg0.N,
    win0_0.index t (0 : Fin 3) = t.val / 8 ∧ win0_0.index t (1 : Fin 3) = t.val / 2 % 4 ∧ win0_0.index t (2 : Fin 3) = 0
    ∧ win0_1.index t (0 : Fin 3) = t.val / 8 ∧ win0_1.index t (1 : Fin 3) = t.val % 2 ∧ win0_1.index t (2 : Fin 3) = 0
    ∧ win0_2.index t (0 : Fin 3) = t.val / 8 ∧ win0_2.index t (1 : Fin 3) = t.val / 2 % 4 ∧ win0_2.index t (2 : Fin 3) = 0 :=
  (by decide +kernel : ∀ t : Fin grid0.N, _)

/-! ## The staged blocks are entries of the argument arrays -/

/-- The query block at point `t`, at `(0, p, k)`: row `1024 · (t / 2 % 4) + p` of batch `t / 8` of `dec`. -/
theorem q_at (c : Dev nD) (t : Fin cfg0.N) (p k : Fin 1024) (b : Fin 4) (r : Fin 4096)
    (hb : b.val = t.val / 8) (hr : r.val = t.val / 2 % 4 * 1024 + p.val) :
    iblk m c 0 t (ix3 (0 : Fin 1) p k) = m ((c : Thread nD τ).loc main_arg1) (ix3 b r k) := by
  obtain ⟨e0, e1, e2, -, -, -, -, -, -⟩ := idx_facts t
  show m ((c : Thread nD τ).loc main_arg1) (((cfg0.win 0).blk t).view.emb (ix3 (0 : Fin 1) p k)) = _
  refine congrArg _ (funext fun a => Fin.ext ?_)
  match a with
  | ⟨0, _⟩ => show win0_0.index t (0 : Fin 3) * 1 + 1 * 0 = b.val; omega
  | ⟨1, _⟩ => show win0_0.index t (1 : Fin 3) * 1024 + 1 * p.val = r.val; omega
  | ⟨2, _⟩ => show win0_0.index t (2 : Fin 3) * 1024 + 1 * k.val = k.val; omega

/-- The key block at point `t`, at `(0, j, k)`: row `2048 · (t % 2) + j` of batch `t / 8` of `enc`. -/
theorem kv_at (c : Dev nD) (t : Fin cfg0.N) (j : Fin 2048) (k : Fin 1024) (b : Fin 4) (e : Fin 4096)
    (hb : b.val = t.val / 8) (he : e.val = t.val % 2 * 2048 + j.val) :
    iblk m c 1 t (ix3 (0 : Fin 1) j k) = m ((c : Thread nD τ).loc main_arg0) (ix3 b e k) := by
  obtain ⟨-, -, -, e0, e1, e2, -, -, -⟩ := idx_facts t
  show m ((c : Thread nD τ).loc main_arg0) (((cfg0.win 1).blk t).view.emb (ix3 (0 : Fin 1) j k)) = _
  refine congrArg _ (funext fun a => Fin.ext ?_)
  match a with
  | ⟨0, _⟩ => show win0_1.index t (0 : Fin 3) * 1 + 1 * 0 = b.val; omega
  | ⟨1, _⟩ => show win0_1.index t (1 : Fin 3) * 2048 + 1 * j.val = e.val; omega
  | ⟨2, _⟩ => show win0_1.index t (2 : Fin 3) * 1024 + 1 * k.val = k.val; omega

/-! ## Scores and values as real numbers -/

/-- The dot product of a query row with a key row, both of real entries, is the real score. -/
theorem score_coe (enc dec : SArr.Idx → EReal) (henc : AllReal enc) (hdec : AllReal dec) (b : Fin 4) (r e : Fin 4096) :
    ∑ k : Fin 1024, dec (ix3 b r k) * enc (ix3 b e k) = ((score enc dec b r e : ℝ) : EReal) := by
  unfold score
  rw [coe_sum]
  exact Finset.sum_congr rfl fun k _ => by
    rw [EReal.coe_mul, henc.coe_toReal, hdec.coe_toReal, mul_comm]

/-- A sum over the two key blocks' rows is the sum over all 4096 key rows. -/
theorem sum_blocks (g : Fin 2048 ⊕ Fin 2048 → ℝ) (f : Fin 4096 → ℝ)
    (h0 : ∀ j : Fin 2048, g (Sum.inl j) = f ⟨j.val, by omega⟩)
    (h1 : ∀ j : Fin 2048, g (Sum.inr j) = f ⟨2048 + j.val, by omega⟩) : ∑ x, g x = ∑ e, f e := by
  rw [Fintype.sum_sum_type]
  simp only [h0, h1]
  exact (Fin.sum_univ_add (a := 2048) (b := 2048) f).symm

/-! ## The two key blocks' scores and values, as the law's families -/

abbrev sc0 (enc dec : SArr.Idx → EReal) (b : Fin 4) (r : Fin 4096) : Fin 2048 → ℝ :=
  fun j => score enc dec b r ⟨j.val, by omega⟩
abbrev sc1 (enc dec : SArr.Idx → EReal) (b : Fin 4) (r : Fin 4096) : Fin 2048 → ℝ :=
  fun j => score enc dec b r ⟨2048 + j.val, by omega⟩
abbrev va0 (enc : SArr.Idx → EReal) (b : Fin 4) (d : Fin 1024) : Fin 2048 → ℝ :=
  fun j => (enc (ix3 b (⟨j.val, by omega⟩ : Fin 4096) d)).toReal
abbrev va1 (enc : SArr.Idx → EReal) (b : Fin 4) (d : Fin 1024) : Fin 2048 → ℝ :=
  fun j => (enc (ix3 b (⟨2048 + j.val, by omega⟩ : Fin 4096) d)).toReal

/-- The average over the two blocks' rows is the specification's entry. -/
theorem two_blocks_eq_attn (enc dec : SArr.Idx → EReal) (b : Fin 4) (r : Fin 4096) (d : Fin 1024) :
    (((∑ x, Real.exp (Sum.elim (sc0 enc dec b r) (sc1 enc dec b r) x) * Sum.elim (va0 enc b d) (va1 enc b d) x)
        / (∑ x, Real.exp (Sum.elim (sc0 enc dec b r) (sc1 enc dec b r) x)) : ℝ) : EReal)
      = attn enc dec (ix3 b r d) := by
  show _ = (((∑ e : Fin 4096, Real.exp (score enc dec b r e) * (enc (ix3 b e d)).toReal)
      / (∑ e : Fin 4096, Real.exp (score enc dec b r e)) : ℝ) : EReal)
  rw [sum_blocks _ (fun e => Real.exp (score enc dec b r e) * (enc (ix3 b e d)).toReal) (fun j => rfl) (fun j => rfl),
    sum_blocks _ (fun e => Real.exp (score enc dec b r e)) (fun j => rfl) (fun j => rfl)]

/-! ## What an odd point writes back -/

/-- At an even point `s` (a first key block) the three carried buffers end at the first-block terms of the point's
    staged blocks. -/
theorem first_point (c : Dev nD) (s : Fin cfg0.N) (h0 : s.val % 2 = 0) (h1 : ¬s.val % 2 = 1) :
    (outsAt0 m c s.val s.isLt).2.1 = k0_pay2 (k0_pay9 (iblk m c 0 s) (iblk m c 1 s) (k0_pay4 (F := Ideal)))
    ∧ (outsAt0 m c s.val s.isLt).2.2.1 = k0_pay12 (iblk m c 0 s) (iblk m c 1 s) (k0_pay4 (F := Ideal)) (k0_pay5 (F := Ideal))
    ∧ (outsAt0 m c s.val s.isLt).2.2.2 = k0_pay1 (k0_pay13 (iblk m c 0 s) (iblk m c 1 s) (k0_pay4 (F := Ideal)) (k0_pay6 (F := Ideal))) := by
  rw [outsAt0_A m c s h0 h1]
  dsimp only
  exact ⟨Pieces.max_first (F := Ideal) c (grid0.coords s) (ms0_0 s) (hs0_0 s) (ms0_1 s) (hs0_1 s) (ms0_2 s) (hs0_2 s) scM0_0 (Memref.isWhole_whole _) scM0_1 (Memref.isWhole_whole _) scM0_2 (Memref.isWhole_whole _) ((hcond0_0 s).mpr h0) (fun h => h1 ((hcond0_1 s).mp h)) (iblk m c 0 s) (iblk m c 1 s),
    Pieces.weight_first (F := Ideal) c (grid0.coords s) (ms0_0 s) (hs0_0 s) (ms0_1 s) (hs0_1 s) (ms0_2 s) (hs0_2 s) scM0_0 (Memref.isWhole_whole _) scM0_1 (Memref.isWhole_whole _) scM0_2 (Memref.isWhole_whole _) ((hcond0_0 s).mpr h0) (fun h => h1 ((hcond0_1 s).mp h)) (iblk m c 0 s) (iblk m c 1 s),
    Pieces.values_first (F := Ideal) c (grid0.coords s) (ms0_0 s) (hs0_0 s) (ms0_1 s) (hs0_1 s) (ms0_2 s) (hs0_2 s) scM0_0 (Memref.isWhole_whole _) scM0_1 (Memref.isWhole_whole _) scM0_2 (Memref.isWhole_whole _) ((hcond0_0 s).mpr h0) (fun h => h1 ((hcond0_1 s).mp h)) (iblk m c 0 s) (iblk m c 1 s)⟩

/-- The quotient stored at an odd point `t`, over what the even point `s` before it left, is the specification's entry
    at the block's place in the array. -/
theorem odd_point_value (c : Dev nD)
    (henc : AllReal (m ((c : Thread nD τ).loc main_arg0))) (hdec : AllReal (m ((c : Thread nD τ).loc main_arg1)))
    (s t : Fin cfg0.N) (hst : s.val + 1 = t.val) (h1 : t.val % 2 = 1) (y : S1x1024x1024.Idx) :
    k0_pay3 (F := Ideal)
        (k0_pay1 (k0_pay13 (iblk m c 0 t) (iblk m c 1 t)
          (k0_pay2 (k0_pay9 (iblk m c 0 s) (iblk m c 1 s) (k0_pay4 (F := Ideal))))
          (k0_pay1 (k0_pay13 (iblk m c 0 s) (iblk m c 1 s) (k0_pay4 (F := Ideal)) (k0_pay6 (F := Ideal))))))
        (k0_pay12 (iblk m c 0 t) (iblk m c 1 t)
          (k0_pay2 (k0_pay9 (iblk m c 0 s) (iblk m c 1 s) (k0_pay4 (F := Ideal))))
          (k0_pay12 (iblk m c 0 s) (iblk m c 1 s) (k0_pay4 (F := Ideal)) (k0_pay5 (F := Ideal)))) y
      = attn (m ((c : Thread nD τ).loc main_arg0)) (m ((c : Thread nD τ).loc main_arg1)) (((cfg0.win 2).blk t).view.emb y) := by
  have hN : cfg0.N = 32 := N_0
  have htl : t.val < 32 := lt_of_lt_of_eq t.isLt hN
  obtain ⟨u, p, d, rfl⟩ : ∃ (u : Fin 1) (p d : Fin 1024), y = ix3 u p d := ⟨y 0, y 1, y 2, eq_ix3 y⟩
  obtain ⟨-, -, -, -, -, -, e0, e1, e2⟩ := idx_facts t
  have hu : u.val = 0 := by omega
  have hp : p.val < 1024 := p.isLt
  have hemb : ((cfg0.win 2).blk t).view.emb (ix3 u p d)
      = ix3 (⟨t.val / 8, by omega⟩ : Fin 4) (⟨t.val / 2 % 4 * 1024 + p.val, by omega⟩ : Fin 4096) d :=
    funext fun a => Fin.ext (by
      match a with
      | ⟨0, _⟩ => show win0_2.index t (0 : Fin 3) * 1 + 1 * u.val = t.val / 8; omega
      | ⟨1, _⟩ => show win0_2.index t (1 : Fin 3) * 1024 + 1 * p.val = t.val / 2 % 4 * 1024 + p.val; omega
      | ⟨2, _⟩ => show win0_2.index t (2 : Fin 3) * 1024 + 1 * d.val = d.val; omega)
  rw [hemb, ← two_blocks_eq_attn]
  refine Rows.block_value (iblk m c 0 s) (iblk m c 0 t) (iblk m c 1 s) (iblk m c 1 t) u p d _ _ _ _
    (fun j => ?_) (fun j => ?_) (fun j => ?_) (fun j => ?_)
  · refine (At.scores_at (iblk m c 0 s) (iblk m c 1 s) p j).trans ?_
    refine (Finset.sum_congr rfl fun k _ => ?_).trans (score_coe _ _ henc hdec _ _ _)
    exact congrArg₂ (· * ·)
      (q_at m c s p k _ _ (by show t.val / 8 = s.val / 8; omega) (by show t.val / 2 % 4 * 1024 + p.val = s.val / 2 % 4 * 1024 + p.val; omega))
      (kv_at m c s j k _ _ (by show t.val / 8 = s.val / 8; omega) (by show j.val = s.val % 2 * 2048 + j.val; omega))
  · exact (kv_at m c s j d _ _ (by show t.val / 8 = s.val / 8; omega) (by show j.val = s.val % 2 * 2048 + j.val; omega)).trans
      (henc.coe_toReal _).symm
  · refine (At.scores_at (iblk m c 0 t) (iblk m c 1 t) p j).trans ?_
    refine (Finset.sum_congr rfl fun k _ => ?_).trans (score_coe _ _ henc hdec _ _ _)
    exact congrArg₂ (· * ·)
      (q_at m c t p k _ _ rfl rfl)
      (kv_at m c t j k _ _ rfl (by show 2048 + j.val = t.val % 2 * 2048 + j.val; omega))
  · exact (kv_at m c t j d _ _ rfl (by show 2048 + j.val = t.val % 2 * 2048 + j.val; omega)).trans (henc.coe_toReal _).symm

/-- At an odd point the output block written back is the specification's block. -/
theorem flushed_eq (c : Dev nD)
    (henc : AllReal (m ((c : Thread nD τ).loc main_arg0))) (hdec : AllReal (m ((c : Thread nD τ).loc main_arg1)))
    (t : Fin cfg0.N) (hf : (cfg0.win 2).flush t = true) :
    (dats m 0 c).flushed 2 t = ((cfg0.win 2).blk t).view.read (Elt Ideal)
      (attn (m ((c : Thread nD τ).loc main_arg0)) (m ((c : Thread nD τ).loc main_arg1))) := by
  have h1 : t.val % 2 = 1 := (flush0_2 t).mp hf
  have h0 : ¬t.val % 2 = 0 := by omega
  have hlt : t.val - 1 < cfg0.N := Nat.lt_of_le_of_lt (Nat.sub_le _ _) t.isLt
  have hst : (⟨t.val - 1, hlt⟩ : Fin cfg0.N).val + 1 = t.val := by show t.val - 1 + 1 = t.val; omega
  obtain ⟨hx0, hx1, hx2⟩ := first_point m c ⟨t.val - 1, hlt⟩ (by show (t.val - 1) % 2 = 0; omega) (by show ¬(t.val - 1) % 2 = 1; omega)
  rw [Value.flushed2_B m c t h0 h1]
  refine (congrArg ((cfg0.win 2).cut (grid0.coords t))
    (Pieces.out_next (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) _ _ _)).trans ?_
  rw [hx0, hx1, hx2]
  exact funext (odd_point_value m c henc hdec ⟨t.val - 1, hlt⟩ t hst h1)

/-! ## The written-back blocks cover the array -/

/-- An index of the array is in point `t`'s output block iff each coordinate is in the block's range. -/
theorem mem_blk (t : Fin cfg0.N) (i : S4x4096x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v0).slice (win0_2.rect t)).set ↔ _
  rw [View.set_slice_whole, Rect.mem_set_unit]
  exact Iff.rfl

/-- Every index of the result array lies in the block some odd point writes back: the point of its batch and
    query block whose key block is the last. -/
theorem cover (i : S4x4096x1024.Idx) :
    ∃ t : Fin cfg0.N, (cfg0.win 2).flush t = true ∧ i ∈ ((cfg0.win 2).blk t).view.set := by
  have hN : cfg0.N = 32 := N_0
  have hi0 : (i 0).val < 4 := (i 0).isLt
  have hi1 : (i 1).val < 4096 := (i 1).isLt
  have hi2 : (i 2).val < 1024 := (i 2).isLt
  have hb : ((i 0).val * 4 + (i 1).val / 1024) * 2 + 1 < cfg0.N := by omega
  refine ⟨⟨((i 0).val * 4 + (i 1).val / 1024) * 2 + 1, hb⟩, (flush0_2 _).mpr (by show (((i 0).val * 4 + (i 1).val / 1024) * 2 + 1) % 2 = 1; omega), ?_⟩
  rw [mem_blk]
  obtain ⟨-, -, -, -, -, -, e0, e1, e2⟩ := idx_facts ⟨((i 0).val * 4 + (i 1).val / 1024) * 2 + 1, hb⟩
  have tv : (⟨((i 0).val * 4 + (i 1).val / 1024) * 2 + 1, hb⟩ : Fin cfg0.N).val = ((i 0).val * 4 + (i 1).val / 1024) * 2 + 1 := rfl
  rw [tv] at e0 e1
  intro a
  match a with
  | ⟨0, _⟩ =>
    show win0_2.index ⟨((i 0).val * 4 + (i 1).val / 1024) * 2 + 1, hb⟩ (0 : Fin 3) * 1 ≤ (i 0).val
      ∧ (i 0).val < win0_2.index ⟨((i 0).val * 4 + (i 1).val / 1024) * 2 + 1, hb⟩ (0 : Fin 3) * 1 + 1
    omega
  | ⟨1, _⟩ =>
    show win0_2.index ⟨((i 0).val * 4 + (i 1).val / 1024) * 2 + 1, hb⟩ (1 : Fin 3) * 1024 ≤ (i 1).val
      ∧ (i 1).val < win0_2.index ⟨((i 0).val * 4 + (i 1).val / 1024) * 2 + 1, hb⟩ (1 : Fin 3) * 1024 + 1024
    omega
  | ⟨2, _⟩ =>
    show win0_2.index ⟨((i 0).val * 4 + (i 1).val / 1024) * 2 + 1, hb⟩ (2 : Fin 3) * 1024 ≤ (i 2).val
      ∧ (i 2).val < win0_2.index ⟨((i 0).val * 4 + (i 1).val / 1024) * 2 + 1, hb⟩ (2 : Fin 3) * 1024 + 1024
    omega

/-! ## The result array and the run -/

/-- After the run the result array is softmax attention of the argument arrays, when their entries are real. -/
theorem final (c : Dev nD)
    (henc : AllReal (m ((c : Thread nD τ).loc main_arg0))) (hdec : AllReal (m ((c : Thread nD τ).loc main_arg1))) :
    (dats m 0 c).arrAt 2 cfg0.N = attn (m ((c : Thread nD τ).loc main_arg0)) (m ((c : Thread nD τ).loc main_arg1)) :=
  (dats m 0 c).arrAt_eq_of_cover 2 _ (fun t hf => flushed_eq m c henc hdec t hf) cover

/-- The kernel's run: it terminates with the result array at the specification and the arguments unchanged. -/
theorem run (hreal : ∀ c : Dev nD, AllReal (m ((c : Thread nD τ).loc main_arg0)) ∧ AllReal (m ((c : Thread nD τ).loc main_arg1))) :
    θ_run defs (onTc (τ := τ) (main (F := Ideal))) ⟨m, fun _ => 0, ρ⟩ fun r => ∀ c : Dev nD,
      r.2.mem ((c : Thread nD τ).loc main_v0)
        = attn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hreal c).1 (hreal c).2), (h c).2⟩)
    (Value.run_blocks m ρ)

end Cert.KernelIdeal.Final

end
-- ==== Proof.RefIsAttn.lean ====
/-
  The reference program computes softmax attention.

  The reference forms every score `σ e = ∑ k, enc (b, e, k) · dec (b, t, k)`, takes for each `(b, t)` the maximum `M`
  of the scores over the key rows `e` (started from `-∞`, and once more joined with `-∞`), subtracts it,
  exponentiates, normalises each weight by the sum over `e` (started from zero) and adds up the weighted value
  entries `enc (b, e, d)`. When all entries of both arguments are real numbers, every score is a real number, so `M`
  is one too (a maximum of reals over a nonempty family), and the one-pass law `Law.ref_row` says the result is
  the exp-score-weighted average of the value entries: the specification `attn`.
-/
import proofs.«100083_j72962904424712_2_alg».proof.Proof.Gen.ReferenceIdeal.Read
import proofs.«100083_j72962904424712_2_alg».proof.Proof.AttnSpec
import proofs.«100083_j72962904424712_2_alg».proof.Proof.SoftmaxLaw
import Idealize.ShloMosaic.PureOps.Reduce
import Idealize.ShloMosaic.PureOps.Ideal.Laws

noncomputable section

namespace Cert.Attn.Ref

open Idealize.ShloMosaic Idealize.ShloMosaic.ValueIdx Cert.ReferenceIdeal Cert.ReferenceIdeal.Gen Cert.ReferenceIdeal.Read

variable (enc dec : SArr.Idx → EReal)

/-- The score stage at `(b, e, t)` is the dot product of key row `e` and query row `t`, a real number. -/
theorem v0_eq (henc : AllReal enc) (hdec : AllReal dec) (b : Fin 4) (e t : Fin 4096) :
    val_main_v0 (F := Ideal) enc dec (ix3 b e t) = ((score enc dec b t e : ℝ) : EReal) := by
  have el : ∀ k : Fin 1024, lidx_main_v0 (ix3 b e t) k = ix3 b e k := fun k => funext fun a => by
    match a with | ⟨0, _⟩ => rfl | ⟨1, _⟩ => rfl | ⟨2, _⟩ => rfl
  have er : ∀ k : Fin 1024, ridx_main_v0 (ix3 b e t) k = ix3 b t k := fun k => funext fun a => by
    match a with | ⟨0, _⟩ => rfl | ⟨1, _⟩ => rfl | ⟨2, _⟩ => rfl
  rw [val_main_v0_apply, score, Law.coe_sum]
  refine Finset.sum_congr rfl fun k _ => ?_
  rw [el, er, EReal.coe_mul, henc.coe_toReal, hdec.coe_toReal]

/-- Reducing the key-row axis of the scores' shape leaves `(b, t)`. -/
theorem hRed : S4x4096x4096.Reduces [1] S4x4096 := by decide

/-- The index of the scores' shape over `(b, t)` whose key-row coordinate is `e` is `(b, e, t)`. -/
theorem lift_eq (b : Fin 4) (t : Fin 4096) (e : Fin 4096) : hRed.lift (ix2 b t) e = ix3 b e t :=
  funext fun a => Fin.ext (by
    match a with | ⟨0, _⟩ => rfl | ⟨1, _⟩ => rfl | ⟨2, _⟩ => rfl)

/-- The stabiliser of row `(b, t)`, the maximum of its scores joined with `-∞`, is a real number. -/
theorem stab_real (henc : AllReal enc) (hdec : AllReal dec) (b : Fin 4) (t : Fin 4096) :
    ∃ μ : ℝ, val_main_v3 (F := Ideal) enc dec (ix2 b t) = (μ : EReal) := by
  have hf : (val_main_v0 (F := Ideal) enc dec ∘ hRed.lift (ix2 b t))
      = fun e : Fin 4096 => ((score enc dec b t e : ℝ) : EReal) :=
    funext fun e => (congrArg (val_main_v0 (F := Ideal) enc dec) (lift_eq b t e)).trans (v0_eq enc dec henc hdec b e t)
  obtain ⟨μ, hμ⟩ := Law.fold_max_real (fun e : Fin 4096 => score enc dec b t e) (⊥ : EReal) bot_ne_top
  have h1 : val_main_v1 (F := Ideal) enc dec (ix2 b t) = (μ : EReal) := by
    unfold val_main_v1
    rw [Host.reduce_eq_fold_single FloatOps.maximumf _ _ reducesTo_S4x4096x4096_S4x4096_d1 hRed h_S_, hf,
      val_main_cst_apply, Ideal.ofBits_def, Law.ofBits_neg_inf]
    exact hμ
  rw [val_main_v3_apply, val_main_v2_apply, val_main_cst_0_apply, h1, Ideal.maximumf_def, Ideal.ofBits_def,
    Law.ofBits_neg_inf]
  exact Law.max_real ⊥ bot_ne_top μ

/-- The stabiliser is broadcast along the key rows: at `(b, e, t)` it is the one of row `(b, t)`. -/
theorem v5_eq (b : Fin 4) (e t : Fin 4096) :
    val_main_v5 (F := Ideal) enc dec (ix3 b e t) = val_main_v3 (F := Ideal) enc dec (ix2 b t) := by
  have ei : idx_main_v4 (idx_main_v5 (ix3 b e t)) = ix2 b t := funext fun a => by
    match a with | ⟨0, _⟩ => rfl | ⟨1, _⟩ => rfl
  rw [val_main_v5_apply, val_main_v4_apply, ei]

/-- The unnormalised weight at `(b, e, t)`: the exponential of the score less the row's stabiliser. -/
theorem v7_eq (henc : AllReal enc) (hdec : AllReal dec) (b : Fin 4) (e t : Fin 4096) :
    val_main_v7 (F := Ideal) enc dec (ix3 b e t)
      = Ideal.exp (((score enc dec b t e : ℝ) : EReal) - val_main_v3 (F := Ideal) enc dec (ix2 b t)) := by
  rw [val_main_v7_apply, val_main_v6_apply, v0_eq enc dec henc hdec, v5_eq, Ideal.hostUnary_exp_def, Ideal.subf_def]

/-- The normaliser at `(b, e, t)`: zero plus the sum of the row's unnormalised weights over the key rows. -/
theorem v10_eq (henc : AllReal enc) (hdec : AllReal dec) (b : Fin 4) (e t : Fin 4096) :
    val_main_v10 (F := Ideal) enc dec (ix3 b e t)
      = Ideal.ofBits .f32 0x00000000#32
        + ∑ e' : Fin 4096, Ideal.exp (((score enc dec b t e' : ℝ) : EReal) - val_main_v3 (F := Ideal) enc dec (ix2 b t)) := by
  have ei : idx_main_v9 (idx_main_v10 (ix3 b e t)) = ix2 b t := funext fun a => by
    match a with | ⟨0, _⟩ => rfl | ⟨1, _⟩ => rfl
  have ek : ∀ k : Fin 4096, idx_main_v8 (ix2 b t) k = ix3 b k t := fun k => funext fun a => by
    match a with | ⟨0, _⟩ => rfl | ⟨1, _⟩ => rfl | ⟨2, _⟩ => rfl
  rw [val_main_v10_apply, val_main_v9_apply, ei, val_main_v8_apply, val_main_cst_1_apply, Ideal.ofBits_def]
  exact congrArg (_ + ·) (Finset.sum_congr rfl fun k _ => by rw [ek, v7_eq enc dec henc hdec])

/-- On arguments whose entries are all real numbers the reference's result is softmax attention. -/
theorem ref_eq_attn (henc : AllReal enc) (hdec : AllReal dec) :
    val_main_v12 (F := Ideal) enc dec = attn enc dec := by
  funext i
  obtain ⟨b, t, d, rfl⟩ : ∃ (b : Fin 4) (t : Fin 4096) (d : Fin 1024), i = ix3 b t d := ⟨i 0, i 1, i 2, eq_ix3 i⟩
  have el : ∀ k : Fin 4096, lidx_main_v12 (ix3 b t d) k = ix3 b k t := fun k => funext fun a => by
    match a with | ⟨0, _⟩ => rfl | ⟨1, _⟩ => rfl | ⟨2, _⟩ => rfl
  have er : ∀ k : Fin 4096, ridx_main_v12 (ix3 b t d) k = ix3 b k d := fun k => funext fun a => by
    match a with | ⟨0, _⟩ => rfl | ⟨1, _⟩ => rfl | ⟨2, _⟩ => rfl
  rw [val_main_v12_apply]
  have hterm : ∀ e : Fin 4096,
      val_main_v11 (F := Ideal) enc dec (lidx_main_v12 (ix3 b t d) e) * enc (ridx_main_v12 (ix3 b t d) e)
        = Ideal.div (Ideal.exp (((score enc dec b t e : ℝ) : EReal) - val_main_v3 (F := Ideal) enc dec (ix2 b t)))
            (Ideal.ofBits .f32 0x00000000#32
              + ∑ e' : Fin 4096, Ideal.exp (((score enc dec b t e' : ℝ) : EReal) - val_main_v3 (F := Ideal) enc dec (ix2 b t)))
          * (((enc (ix3 b e d)).toReal : ℝ) : EReal) := fun e => by
    rw [el, er, val_main_v11_apply, Ideal.hostDivf_def, v10_eq enc dec henc hdec, v7_eq enc dec henc hdec,
      henc.coe_toReal]
  rw [Finset.sum_congr rfl fun e _ => hterm e]
  exact Law.ref_row (fun e : Fin 4096 => score enc dec b t e) (fun e : Fin 4096 => (enc (ix3 b e d)).toReal) _ _
    (stab_real enc dec henc hdec b t) Ideal.ofBits_zero_f32

end Cert.Attn.Ref

end
-- ==== Proof.FiniteInputs.lean ====
/-
  The precondition says that every entry of both arguments is a real number.

  The precondition compares the absolute value of every entry with `+∞` (strictly below), joins the comparisons of
  each argument by `and` over all three axes, and joins the two results by `and`. When the outcome is true every single
  comparison is true. The absolute value of an extended real `x` is `max x (-x)`, which is `+∞` at both infinities;
  so an entry whose absolute value is strictly below `+∞` is neither infinity: it is a real number.
-/
import proofs.«100083_j72962904424712_2_alg».proof.Proof.Gen.Pre_finite_inputs
import proofs.«100083_j72962904424712_2_alg».proof.Proof.AttnSpec
import Idealize.ShloMosaic.Lib.ReduceAll
import Idealize.ShloMosaic.Lib.ValueIdx
import Idealize.ShloMosaic.PureOps.Ideal.Laws

noncomputable section

namespace Cert.Attn.Pre

open Idealize.ShloMosaic Idealize.ShloMosaic.ValueIdx

/-- A scalar's shape has exactly one index. -/
instance : Subsingleton Cert.Pre_finite_inputs.S_.Idx := ⟨fun a b => funext fun d => d.elim0⟩

/-- The pattern of positive infinity denotes the top element. -/
theorem ofBits_pos_inf : Ideal.ofBits .f32 0x7F800000#32 = (⊤ : EReal) := by
  simp [Ideal.ofBits, Ideal.ieee]

/-- An extended real whose absolute value compares strictly below `+∞` is a real number. -/
theorem real_of_abs_lt_top (x : EReal)
    (h : FloatOps.cmpf (F := Ideal) (φ := .f32) .olt (FloatOps.hostAbsf x) (FloatOps.ofBits .f32 0x7F800000#32) = 1#1) :
    ∃ r : ℝ, x = (r : EReal) := by
  rw [Ideal.cmpf_def, Ideal.hostAbsf_def, Ideal.absf_def, Ideal.ofBits_def, ofBits_pos_inf] at h
  induction x using EReal.rec with
  | bot => simp [Ideal.cmp] at h
  | top => simp [Ideal.cmp] at h
  | coe r => exact ⟨r, rfl⟩

/-- When the precondition holds, all entries of both arguments are real numbers. -/
theorem allReal_of_pre [Cert.Pre_finite_inputs.Facts] (x0 x1 : SArr.Idx → EReal)
    (h : Cert.Pre_finite_inputs.fn (F := Ideal) x0 x1 = fun _ => 1#1) : AllReal x0 ∧ AllReal x1 := by
  have h0 := congrFun h ValueIdx.ix0
  dsimp only [Cert.Pre_finite_inputs.fn] at h0
  obtain ⟨ha, hb⟩ := IntOp.andi_eq_one.1 h0
  exact ⟨fun i => real_of_abs_lt_top (x0 i) (Host.reduce_andi_all _ _ _ _ _ ha i),
    fun i => real_of_abs_lt_top (x1 i) (Host.reduce_andi_all _ _ _ _ _ hb i)⟩

end Cert.Attn.Pre

end
-- ==== Proof.lean ====
/-
  Softmax attention by a two-block online softmax equals softmax attention in one pass, over the extended reals.

  The kernel takes queries `dec` and keys `enc` (the keys are also the values), f32[4, 4096, 1024] each. For a block of
  1024 query rows it visits the 4096 key rows in two blocks of 2048, carrying per query row a running maximum `m` of
  the scores, the sum `l` of `exp (score - m)` and, per value column, the sum `acc` of `exp (score - m) · value`; at the
  second block the sums taken against the first block's maximum are rescaled by `exp (m_old - m_new)`, and the
  output is `acc / l`. The reference computes all 4096 scores of a query row, subtracts their maximum, exponentiates,
  divides by the sum, and multiplies the normalised weights with the values.

  Both are the exp-score-weighted average of the value entries over the key rows (`Cert.Attn.attn`): any real number
  subtracted from all scores of a row multiplies numerator and denominator by one positive factor, so neither the
  kernel's running maxima nor the reference's maximum matter beyond being real numbers. That needs every input
  entry to be a real number, which is the precondition: on the extended reals products do not distribute over sums
  at the infinities. The changes of float format in the kernel (bf16 operands of the two matrix products) are the
  identity on the extended reals, and the kernel's matrix products into a zero accumulator and its row sums and
  maxima are the same sums and maxima the reference's operations denote.

  The parts: `SoftmaxLaw` (the real-number laws), `AttnSpec` (the specification), `CasePieces` and `PayloadAt` (what
  the body's two control cases leave, and its arithmetic at an index), `BlockRows` (one output entry through both
  key blocks), `KernelValue` (the result array and the kernel's run), `RefIsAttn` (the reference's result is the
  specification), `FiniteInputs` (the precondition makes every entry real).
-/
import proofs.«100083_j72962904424712_2_alg».proof.Defs
import proofs.«100083_j72962904424712_2_alg».proof.Proof.Gen.Kernel
import proofs.«100083_j72962904424712_2_alg».proof.Proof.Gen.Kernel.Skeleton
import proofs.«100083_j72962904424712_2_alg».proof.Proof.Gen.Kernel.Launch
import proofs.«100083_j72962904424712_2_alg».proof.Proof.Gen.Kernel.Points
import proofs.«100083_j72962904424712_2_alg».proof.Proof.Gen.Kernel.Frame
import proofs.«100083_j72962904424712_2_alg».proof.Proof.Gen.KernelIdeal
import proofs.«100083_j72962904424712_2_alg».proof.Proof.Gen.KernelIdeal.Skeleton
import proofs.«100083_j72962904424712_2_alg».proof.Proof.Gen.KernelIdeal.Launch
import proofs.«100083_j72962904424712_2_alg».proof.Proof.Gen.KernelIdeal.Points
import proofs.«100083_j72962904424712_2_alg».proof.Proof.Gen.KernelIdeal.Frame
import proofs.«100083_j72962904424712_2_alg».proof.Proof.Gen.ReferenceIdeal
import proofs.«100083_j72962904424712_2_alg».proof.Proof.Gen.Pre_finite_inputs
import proofs.«100083_j72962904424712_2_alg».proof.Proof.Gen.KernelIdeal.Value
import proofs.«100083_j72962904424712_2_alg».proof.Proof.Gen.ReferenceIdeal.Run
import proofs.«100083_j72962904424712_2_alg».proof.Proof.Gen.ReferenceIdeal.Read
import proofs.«100083_j72962904424712_2_alg».proof.Proof.KernelValue
import proofs.«100083_j72962904424712_2_alg».proof.Proof.RefIsAttn
import proofs.«100083_j72962904424712_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories agreeing on real-valued arguments, end with the result array at softmax attention of
    the arguments. -/
theorem algebraic : Cert.algebraic_KernelIdeal_ReferenceIdeal := by
  intro m ρ m' ρ' hpre hagree
  have hreal : ∀ c : Dev Cert.KernelIdeal.nD,
      Cert.Attn.AllReal (m ((c.tc : Thread Cert.KernelIdeal.nD Cert.KernelIdeal.τ).loc Cert.KernelIdeal.main_arg0))
      ∧ Cert.Attn.AllReal (m ((c.tc : Thread Cert.KernelIdeal.nD Cert.KernelIdeal.τ).loc Cert.KernelIdeal.main_arg1)) :=
    fun c => Cert.Attn.Pre.allReal_of_pre _ _ (hpre c)
  refine ⟨fun c => Cert.Attn.attn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Final.run m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2]
  exact Cert.Attn.Ref.ref_eq_attn _ _ (hreal c).1 (hreal c).2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
